-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x512 .f32) (main_arg1 : FVec F S16384x16384 .f32) (main_arg2 : FVec F S512x256 .f32) (main_arg3 : FVec F S256 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S16384x256 : Shape := ⟨2, ![16384, 256]⟩
abbrev S2048x512 : Shape := ⟨2, ![2048, 512]⟩
abbrev S2048x256 : Shape := ⟨2, ![2048, 256]⟩
abbrev S1x256 : Shape := ⟨2, ![1, 256]⟩
abbrev S1024x2048 : Shape := ⟨2, ![1024, 2048]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S16384x256, .bf16⟩
  | .hbm, ⟨5, _⟩ => ⟨S16384x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S256, .f32⟩
  | .local _ .vmem, ⟨4, _⟩ => ⟨S2048x256, .bf16⟩
  | .local _ .vmem, ⟨5, _⟩ => ⟨S2048x256, .bf16⟩
  | .local _ .vmem, ⟨6, _⟩ => ⟨S1024x2048, .f32⟩
  | .local _ .vmem, ⟨7, _⟩ => ⟨S1024x2048, .f32⟩
  | .local _ .vmem, ⟨8, _⟩ => ⟨S16384x256, .bf16⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  shapeCasts_S2048x256_S2048x256 : S2048x256.ShapeCasts S2048x256
  dot_S2048x512_S512x256_S2048x256_1_0_0_1_n_n_wf : DotDims.WF S2048x512 S512x256 S2048x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .bf16 = 32 ∨ (Rect.block (s := S16384x256) S2048x256.size (cc0_transform_3 i) (hinb0_3 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S16384x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x256 : Shape := ⟨2, ![512, 256]⟩
abbrev S256 : Shape := ⟨1, ![256]⟩
abbrev S16384x256 : Shape := ⟨2, ![16384, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x256, .f32⟩
  | .hbm, ⟨3, _⟩ => ⟨S256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x512_S512x256_S16384x256_1_0_0_1_n_n_wf : DotDims.WF S16384x512 S512x256 S16384x256 [1] [0] [0] [1] [] []
  dot_S16384x16384_S16384x256_S16384x256_1_0_0_1_n_n_wf : DotDims.WF S16384x16384 S16384x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.K.Region0.lean ====
/-
  The projection call (the first of the program's two kernel launches), as one pipeline over a grid of 8 points.

  Point t stages rows 2048·t … 2048·t + 2047 of X, the whole of W and the whole of b, and the body stores into the
  output's staging buffer one value: the product of the staged rows with W plus the bias row (the body's payload), which
  the pipeline writes back as rows 2048·t … of the projected array.  Stated here, for any float instance and for any
  contents V of the arrays when the call is entered: what each staging buffer holds before and after the body at every
  point, the body's run, and the per-point obligation the pipeline's launch rule asks for.  The body keeps nothing between
  points, so the invariant is the plain one: the buffers the call does not stage, at anything, and the generator register.
-/
import proofs.«100625_j26663156974292_2_alg».proof.Proof.Gen.Kernel.Launch
import proofs.«100625_j26663156974292_2_alg».proof.Proof.Gen.Kernel.Skeleton
import proofs.«100625_j26663156974292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an earlier
    one did (the block index has not moved since), for any proof data over the arrays V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S256 := Rect.unit (s := S256) ![0] S256.size inb_S256_S256_0
abbrev r0_3 : Rect S2048x256 := Rect.unit (s := S2048x256) ![0, 0] S2048x256.size inb_S2048x256_S2048x256_0_0

/-- The output's staging buffer after the body, from the three staged inputs: its one store, of the payload. -/
def out0_3 (x0 : Vec F S2048x512 .f32) (x1 : Vec F S512x256 .f32) (x2 : Vec F S256 .f32) : Vec F S2048x256 .bf16 :=
  View.canon [⟨r0_3, k0_pay1 (View.ld x0 r0_0) (View.ld x1 r0_1) (View.ld x2 r0_2)⟩]

/-- The one store covers the buffer. -/
theorem cover0_3 (p0 : Vec F S2048x256 .bf16) (y : S2048x256.Idx) :
    ∃ pc ∈ ([⟨r0_3, p0⟩] : List (View.Piece (Elt F) S2048x256 .bf16)), y ∈ pc.1.set :=
  View.cover_of_tiled [⟨r0_3, p0⟩] S2048x256.size (by rfl) y

set_option maxHeartbeats 1000000 in
/-- The body on whole staging memrefs, the inputs' at contents x0, x1, x2 and the output's at anything: it runs to the
    end, leaves the inputs as they were and the output's buffer at the payload of the inputs. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S2048x256 .bf16) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection pipeline on core c: the arrays as the call finds them; after the body at point t
    each input's buffer at its block and the output's at the payload of the three input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.Region1Runs.lean ====
/-
  The aggregation call's body, run in each of the three situations the grid puts it in.

  The body adds one tile's product to an accumulator kept in a scratch buffer: at the first tile of a row block (k = 0) it
  first stores zeros into the scratch; at every tile it loads the staged 1024 × 2048 tile of A and rows 2048·k … of the
  resident projected array, adds their product to the scratch; at the last tile (k = 7) it copies the scratch into the
  output's staging buffer.  For each situation: the pieces the body's stores leave in the scratch (and, at the last tile,
  in the output buffer), found by running the body, with the run itself — the inputs are left as they were, and at the
  other tiles the output buffer is handed back untouched.
-/
import proofs.«100625_j26663156974292_2_alg».proof.Proof.Gen.Kernel.Launch
import proofs.«100625_j26663156974292_2_alg».proof.Proof.Gen.Kernel.Skeleton
import proofs.«100625_j26663156974292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first tile of a row block: the condition of the body's first branch, from the grid coordinates. -/
abbrev cond1_0 (i : grid1.Coords) : Prop := (Scalar.cmpi .ne (Scalar.extui (Scalar.cmpi .eq (BitVec.ofNat 32 (i 1).val) 0#32)) 0#32) = 1#1
/-- The last tile of a row block: the condition of the body's second branch. -/
abbrev cond1_1 (i : grid1.Coords) : Prop := k1_cond2 i = 1#1

set_option maxHeartbeats 1000000 in
/-- First tile (k = 0): the scratch at anything on entry; the output buffer untouched. -/
noncomputable def kernelRun1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle tile (0 < k < 7): the scratch at what the tile before left; the output buffer untouched. -/
noncomputable def kernelRun1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last tile (k = 7): the scratch at what the tile before left; the output buffer, at anything on entry, ends with
    the body's one store into it. -/
noncomputable def kernelRun1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Region1.lean ====
/-
  The aggregation call (the second of the program's two kernel launches), as one pipeline over a 16 × 8 grid of points
  t = 8·i + k: row block i of the output, tile k of the neighbours.

  Point t stages the 1024 × 2048 tile (i, k) of A and — once, at the first point — the whole projected array; the body
  adds the tile's product to an accumulator in a scratch buffer that it zeroes at k = 0 and copies into the output's
  staging buffer at k = 7, the only points whose block the pipeline writes back.  Stated here, for any float instance
  and any contents V of the arrays when the call is entered: what the scratch and the output buffer hold after each
  point (a recursion on the point: each tile's run starts from what the tile before left in the scratch), the invariant
  that carries the scratch from point to point, and the per-point obligation the pipeline's launch rule asks for.
-/
import proofs.«100625_j26663156974292_2_alg».proof.Proof.Gen.Kernel.Launch
import proofs.«100625_j26663156974292_2_alg».proof.Proof.Gen.Kernel.Skeleton
import proofs.«100625_j26663156974292_2_alg».proof.Proof.Gen.Kernel.Points
import proofs.«100625_j26663156974292_2_alg».proof.Proof.K.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch is taken at the points ≡ 0 (mod 8), the second at the points ≡ 7 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, away from the last tile. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, and the scratch, as views through which their contents are stated. -/
abbrev VO1_2 : View sig .tc .vmem S1024x256 .f32 := (Memref.whole cc1_stg2_0 : Memref sig .tc .vmem S1024x256 .f32).view
abbrev scM1 : Memref sig .tc .vmem S1024x256 .f32 := Memref.whole cc1_scratch0
abbrev VS1 : View sig .tc .vmem S1024x256 .f32 := scM1.view
/-- Each window's current staging memref at point t, as the pipeline passes it to the body. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

/-- The scoped buffers the call does not stage, the scratch apart: the first call's six staging buffers, at anything,
    beside a statement S about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- A statement about the scratch may be weakened beside the other buffers. -/
theorem restWith_mono (c : Dev nD) {S S' : sProp 𝕄} (h : S ⊢ S') : restWith (F := F) c S ⊢ restWith (F := F) c S' := by
  unfold restWith
  iintro ⟨B0, B1, B2, B3, B4, B5, HS⟩
  isplitl [B0]; · iexact B0
  isplitl [B1]; · iexact B1
  isplitl [B2]; · iexact B2
  isplitl [B3]; · iexact B3
  isplitl [B4]; · iexact B4
  isplitl [B5]; · iexact B5
  iapply h; iexact HS

/-- The plain invariant with the scratch as a memref owned at some contents. -/
theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each situation leaves in the scratch and in the output buffer -/

/-- The output buffer where the body stores nothing into it: a placeholder nothing consults (the block is neither
    written back there nor read at the next point). -/
def outIdle : Vec F S1024x256 .f32 := VO1_2.read (Elt F) (VO1_2.writes (Elt F) VO1_2.junk [])

theorem scover1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What the first tile leaves in the scratch: its pieces read back. -/
def sout1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) : Vec F S1024x256 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What a middle tile leaves in the scratch. -/
def sout1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) : Vec F S1024x256 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What the last tile leaves in the output's staging buffer. -/
def out1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What the last tile leaves in the scratch. -/
def sout1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) : Vec F S1024x256 .f32 :=
  VS1.read (Elt F) (VS1.writes (Elt F) VS1.junk (kernelRun1_C c i arg2 harg2 arg3 harg3 arg4 harg4 arg5 harg5 hc0 hc1 x0 x1 xs0).2.1)

/-! ## The accumulation, point by point -/

/-- What the output's staging buffer and the scratch hold after the body at position n (a pair): the situation the
    position is in, run at the point's memrefs and input blocks, from what position n − 1 left in the scratch. -/
def outsAt1 (c : Dev nD) : (n : ℕ) → n < cfg1.N → Vec F S1024x256 .f32 × Vec F S1024x256 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the plain one (the scratch at anything); afterwards the
    other buffers at anything, the scratch at what the point before left in it, and the generator register. -/
def PhiS (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1 fullShare ((outsAt1 V c (n - 1) (by omega)).2)) ∗ (∃ r, prngReg c r)) := by
  cases n with
  | zero => exact absurd rfl hz
  | succ n => rfl

/-- The proof data of the aggregation pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position modulo 8 says which situation it
    is in; the invariant hands the body the scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold restWith
      iintro ⟨⟨⟨B0, B1, B2, B3, B4, B5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call (the plain invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  refine BI.sep_mono (restWith_mono c ?_) (BI.Entails.refl _)
  iintro H; iexists _; iexact H

end Region1

end Cert.Kernel.Fr

end
-- ==== Proof.K.Run.lean ====
/-
  The whole program: the projection call, then the aggregation call, from the launch to the return.

  Between the two calls, and after the second, every buffer that outlives a call is held whole at contents that are a
  fold from the launch memory: a call leaves each of its arrays at what its pipeline's write-backs make of it (an input
  as it was entered, the output with every written-back block overwritten) and every other such buffer as it was.  Hence:
  every weakly fair execution terminates without a fault, and at the end each of these buffers — the four arguments, the
  projected array and the result — holds the fold's value.  The arguments are read back through the fold to their launch
  contents; the result is the aggregation pipeline's final array, entered from the projection pipeline's final array.
-/
import proofs.«100625_j26663156974292_2_alg».proof.Proof.Gen.Kernel.Launch
import proofs.«100625_j26663156974292_2_alg».proof.Proof.Gen.Kernel.Skeleton
import proofs.«100625_j26663156974292_2_alg».proof.Proof.Gen.Kernel.Points
import proofs.«100625_j26663156974292_2_alg».proof.Proof.K.Region0
import proofs.«100625_j26663156974292_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the projection call's entry contents). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation call, entered from the contents the projection call left. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the result is the aggregation pipeline's final array -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem V1_main_arg1 (c : Dev nD) : V1 m ρ c main_arg1 = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = V1 m ρ c main_arg1 := (W2_arr m ρ c 0).trans (((dat1 (V1 m ρ) c).arrAt_in 0 rfl _).trans (A_eq1 (V1 m ρ) c 0))
    _ = m ((c : Thread nD τ).loc main_arg1) := V1_main_arg1 m ρ c
/-- The projected array the aggregation call is entered from is the projection pipeline's final array. -/
theorem V1_main_v0 (c : Dev nD) : V1 m ρ c main_v0 = (dat0 (V0 m ρ) c).arrAt 3 cfg0.N := W1_arr m ρ c 3
/-- The result at the end is the aggregation pipeline's final array. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both calls: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The calls as segments -/

set_option backward.isDefEq.respectTransparency.types false in
/-- The projection call over the thread state: entered from every outliving buffer at the launch contents, left at the
    contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation call over the thread state: entered from the contents the projection call left, left at the final
    contents.  Its invariant starts as the plain one and ends by forgetting what the scratch holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V1 m ρ) c)
    unfold Pipeline.ΦA
    refine (?_ : (_ : sProp 𝕄) ⊢ _)
    iintro ⟨Hp, -, Hr⟩
    isplitl [Hr]; · iexact Hr
    iexact Hp
  hout c := by
    refine BI.Entails.trans (hout1 (V1 m ρ) c) ?_
    rw [Pipeline.ownSems0_none]; unfold Pipeline.ΦA
    refine (?_ : (_ : sProp 𝕄) ⊢ _)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters, every weakly fair execution of the program terminates, nothing faulting, and in
    every final state each buffer that outlives the calls holds the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result named: the aggregation pipeline's final array, and the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.Kernel.Fr

end
-- ==== Proof.KI.Region0.lean ====
/-
  The projection call (the first of the program's two kernel launches), as one pipeline over a grid of 8 points.

  Point t stages rows 2048·t … 2048·t + 2047 of X, the whole of W and the whole of b, and the body stores into the
  output's staging buffer one value: the product of the staged rows with W plus the bias row (the body's payload), which
  the pipeline writes back as rows 2048·t … of the projected array.  Stated here, for any float instance and for any
  contents V of the arrays when the call is entered: what each staging buffer holds before and after the body at every
  point, the body's run, and the per-point obligation the pipeline's launch rule asks for.  The body keeps nothing between
  points, so the invariant is the plain one: the buffers the call does not stage, at anything, and the generator register.
-/
import proofs.«100625_j26663156974292_2_alg».proof.Proof.Gen.KernelIdeal.Launch
import proofs.«100625_j26663156974292_2_alg».proof.Proof.Gen.KernelIdeal.Skeleton
import proofs.«100625_j26663156974292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an earlier
    one did (the block index has not moved since), for any proof data over the arrays V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S256 := Rect.unit (s := S256) ![0] S256.size inb_S256_S256_0
abbrev r0_3 : Rect S2048x256 := Rect.unit (s := S2048x256) ![0, 0] S2048x256.size inb_S2048x256_S2048x256_0_0

/-- The output's staging buffer after the body, from the three staged inputs: its one store, of the payload. -/
def out0_3 (x0 : Vec F S2048x512 .f32) (x1 : Vec F S512x256 .f32) (x2 : Vec F S256 .f32) : Vec F S2048x256 .bf16 :=
  View.canon [⟨r0_3, k0_pay1 (View.ld x0 r0_0) (View.ld x1 r0_1) (View.ld x2 r0_2)⟩]

/-- The one store covers the buffer. -/
theorem cover0_3 (p0 : Vec F S2048x256 .bf16) (y : S2048x256.Idx) :
    ∃ pc ∈ ([⟨r0_3, p0⟩] : List (View.Piece (Elt F) S2048x256 .bf16)), y ∈ pc.1.set :=
  View.cover_of_tiled [⟨r0_3, p0⟩] S2048x256.size (by rfl) y

set_option maxHeartbeats 1000000 in
/-- The body on whole staging memrefs, the inputs' at contents x0, x1, x2 and the output's at anything: it runs to the
    end, leaves the inputs as they were and the output's buffer at the payload of the inputs. -/
theorem sound_kernel0 (c : Dev nD) (E : Set ℕ) (i : grid0.Coords)
    (arg1 : Memref sig .tc .vmem S2048x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S2048x256 .bf16) (harg4 : arg4.IsWhole)
    (x0 : Vec F S2048x512 .f32) (x1 : Vec F S512x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the projection pipeline on core c: the arrays as the call finds them; after the body at point t
    each input's buffer at its block and the output's at the payload of the three input blocks; the plain invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Region1Runs.lean ====
/-
  The aggregation call's body, run in each of the three situations the grid puts it in.

  The body adds one tile's product to an accumulator kept in a scratch buffer: at the first tile of a row block (k = 0) it
  first stores zeros into the scratch; at every tile it loads the staged 1024 × 2048 tile of A and rows 2048·k … of the
  resident projected array, adds their product to the scratch; at the last tile (k = 7) it copies the scratch into the
  output's staging buffer.  For each situation: the pieces the body's stores leave in the scratch (and, at the last tile,
  in the output buffer), found by running the body, with the run itself — the inputs are left as they were, and at the
  other tiles the output buffer is handed back untouched.
-/
import proofs.«100625_j26663156974292_2_alg».proof.Proof.Gen.KernelIdeal.Launch
import proofs.«100625_j26663156974292_2_alg».proof.Proof.Gen.KernelIdeal.Skeleton
import proofs.«100625_j26663156974292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first tile of a row block: the condition of the body's first branch, from the grid coordinates. -/
abbrev cond1_0 (i : grid1.Coords) : Prop := (Scalar.cmpi .ne (Scalar.extui (Scalar.cmpi .eq (BitVec.ofNat 32 (i 1).val) 0#32)) 0#32) = 1#1
/-- The last tile of a row block: the condition of the body's second branch. -/
abbrev cond1_1 (i : grid1.Coords) : Prop := k1_cond2 i = 1#1

set_option maxHeartbeats 1000000 in
/-- First tile (k = 0): the scratch at anything on entry; the output buffer untouched. -/
noncomputable def kernelRun1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle tile (0 < k < 7): the scratch at what the tile before left; the output buffer untouched. -/
noncomputable def kernelRun1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨[], ?_, fun xi2 E K => ?run⟩
  case run =>
    simp only [cc1__spmm_kernel_eq_skeleton]; unfold cc1__spmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last tile (k = 7): the scratch at what the tile before left; the output buffer, at anything on entry, ends with
    the body's one store into it. -/
noncomputable def kernelRun1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Region1.lean ====
/-
  The aggregation call (the second of the program's two kernel launches), as one pipeline over a 16 × 8 grid of points
  t = 8·i + k: row block i of the output, tile k of the neighbours.

  Point t stages the 1024 × 2048 tile (i, k) of A and — once, at the first point — the whole projected array; the body
  adds the tile's product to an accumulator in a scratch buffer that it zeroes at k = 0 and copies into the output's
  staging buffer at k = 7, the only points whose block the pipeline writes back.  Stated here, for any float instance
  and any contents V of the arrays when the call is entered: what the scratch and the output buffer hold after each
  point (a recursion on the point: each tile's run starts from what the tile before left in the scratch), the invariant
  that carries the scratch from point to point, and the per-point obligation the pipeline's launch rule asks for.
-/
import proofs.«100625_j26663156974292_2_alg».proof.Proof.Gen.KernelIdeal.Launch
import proofs.«100625_j26663156974292_2_alg».proof.Proof.Gen.KernelIdeal.Skeleton
import proofs.«100625_j26663156974292_2_alg».proof.Proof.Gen.KernelIdeal.Points
import proofs.«100625_j26663156974292_2_alg».proof.Proof.KI.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch is taken at the points ≡ 0 (mod 8), the second at the points ≡ 7 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, away from the last tile. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, and the scratch, as views through which their contents are stated. -/
abbrev VO1_2 : View sig .tc .vmem S1024x256 .f32 := (Memref.whole cc1_stg2_0 : Memref sig .tc .vmem S1024x256 .f32).view
abbrev scM1 : Memref sig .tc .vmem S1024x256 .f32 := Memref.whole cc1_scratch0
abbrev VS1 : View sig .tc .vmem S1024x256 .f32 := scM1.view
/-- Each window's current staging memref at point t, as the pipeline passes it to the body. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)

/-- The scoped buffers the call does not stage, the scratch apart: the first call's six staging buffers, at anything,
    beside a statement S about the scratch. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- A statement about the scratch may be weakened beside the other buffers. -/
theorem restWith_mono (c : Dev nD) {S S' : sProp 𝕄} (h : S ⊢ S') : restWith (F := F) c S ⊢ restWith (F := F) c S' := by
  unfold restWith
  iintro ⟨B0, B1, B2, B3, B4, B5, HS⟩
  isplitl [B0]; · iexact B0
  isplitl [B1]; · iexact B1
  isplitl [B2]; · iexact B2
  isplitl [B3]; · iexact B3
  isplitl [B4]; · iexact B4
  isplitl [B5]; · iexact B5
  iapply h; iexact HS

/-- The plain invariant with the scratch as a memref owned at some contents. -/
theorem PhiA1_eq (c : Dev nD) :
    (Pipeline.ΦA spec1 c : sProp 𝕄) = iprop(restWith c (iprop(∃ d, owns (c : Thread nD τ) scM1 fullShare d)) ∗ (∃ r, prngReg c r)) := by
  unfold Pipeline.ΦA restWith; rw [scopedRest1_eq]; simp only [scM1, owns_whole]; try rfl

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each situation leaves in the scratch and in the output buffer -/

/-- The output buffer where the body stores nothing into it: a placeholder nothing consults (the block is neither
    written back there nor read at the next point). -/
def outIdle : Vec F S1024x256 .f32 := VO1_2.read (Elt F) (VO1_2.writes (Elt F) VO1_2.junk [])

theorem scover1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) (y : S1024x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x256.size (by sl_kernel_rfl) y

/-- What the first tile leaves in the scratch: its pieces read back. -/
def sout1_A (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : cond1_0 i) (hc1 : ¬cond1_1 i)
    (x0 : Vec F S1024x2048 .f32) (x1 : Vec F S16384x256 .bf16) : Vec F S1024x256 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) (y : S1024x256.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x256.size (by sl_kernel_rfl) y

/-- What a middle tile leaves in the scratch. -/
def sout1_B (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : ¬cond1_1 i)
    (x0 : Vec F S1024x2048 .f32) (x1 : Vec F S16384x256 .bf16) (xs0 : Vec F S1024x256 .f32) : Vec F S1024x256 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) (y : S1024x256.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x256.size (by sl_kernel_rfl) y

/-- What the last tile leaves in the output's staging buffer. -/
def out1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) : Vec F S1024x256 .f32 :=
  VO1_2.read (Elt F) (VO1_2.writes (Elt F) VO1_2.junk (kernelRun1_C c i arg2 harg2 arg3 harg3 arg4 harg4 arg5 harg5 hc0 hc1 x0 x1 xs0).1)

theorem scover1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) (y : S1024x256.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x256.size (by sl_kernel_rfl) y

/-- What the last tile leaves in the scratch. -/
def sout1_C (c : Dev nD) (i : grid1.Coords) (arg2 : Memref sig .tc .vmem S1024x2048 .f32) (harg2 : arg2.IsWhole) (arg3 : Memref sig .tc .vmem S16384x256 .bf16) (harg3 : arg3.IsWhole) (arg4 : Memref sig .tc .vmem S1024x256 .f32) (harg4 : arg4.IsWhole) (arg5 : Memref sig .tc .vmem S1024x256 .f32) (harg5 : arg5.IsWhole) (hc0 : ¬cond1_0 i) (hc1 : cond1_1 i)
    (x0 : Vec F S1024x2048 .f32) (x1 : Vec F S16384x256 .bf16) (xs0 : Vec F S1024x256 .f32) : Vec F S1024x256 .f32 :=
  VS1.read (Elt F) (VS1.writes (Elt F) VS1.junk (kernelRun1_C c i arg2 harg2 arg3 harg3 arg4 harg4 arg5 harg5 hc0 hc1 x0 x1 xs0).2.1)

/-! ## The accumulation, point by point -/

/-- What the output's staging buffer and the scratch hold after the body at position n (a pair): the situation the
    position is in, run at the point's memrefs and input blocks, from what position n − 1 left in the scratch. -/
def outsAt1 (c : Dev nD) : (n : ℕ) → n < cfg1.N → Vec F S1024x256 .f32 × Vec F S1024x256 .f32
  | 0, hn => (outIdle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (outIdle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (outIdle, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (outIdle, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position n: before the first point the plain one (the scratch at anything); afterwards the
    other buffers at anything, the scratch at what the point before left in it, and the generator register. -/
def PhiS (c : Dev nD) : (n : ℕ) → n ≤ cfg1.N → sProp 𝕄
  | 0, _ => Pipeline.ΦA spec1 c
  | n + 1, hn => iprop(restWith c (owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1 fullShare ((outsAt1 V c (n - 1) (by omega)).2)) ∗ (∃ r, prngReg c r)) := by
  cases n with
  | zero => exact absurd rfl hz
  | succ n => rfl

/-- The proof data of the aggregation pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position modulo 8 says which situation it
    is in; the invariant hands the body the scratch at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      unfold restWith
      iintro ⟨⟨⟨B0, B1, B2, B3, B4, B5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS_castSucc V c t, PhiS_pos V c _ _ hz]
      unfold restWith
      iintro ⟨⟨⟨B0, B1, B2, B3, B4, B5, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [B0 B1 B2 B3 B4 B5 HS0 Hg]
      · isplitl [B0 B1 B2 B3 B4 B5 HS0]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call (the plain invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the plain one back: the scratch's named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  refine BI.sep_mono (restWith_mono c ?_) (BI.Entails.refl _)
  iintro H; iexists _; iexact H

end Region1

end Cert.KernelIdeal.Fr

end
-- ==== Proof.KI.Run.lean ====
/-
  The whole program: the projection call, then the aggregation call, from the launch to the return.

  Between the two calls, and after the second, every buffer that outlives a call is held whole at contents that are a
  fold from the launch memory: a call leaves each of its arrays at what its pipeline's write-backs make of it (an input
  as it was entered, the output with every written-back block overwritten) and every other such buffer as it was.  Hence:
  every weakly fair execution terminates without a fault, and at the end each of these buffers — the four arguments, the
  projected array and the result — holds the fold's value.  The arguments are read back through the fold to their launch
  contents; the result is the aggregation pipeline's final array, entered from the projection pipeline's final array.
-/
import proofs.«100625_j26663156974292_2_alg».proof.Proof.Gen.KernelIdeal.Launch
import proofs.«100625_j26663156974292_2_alg».proof.Proof.Gen.KernelIdeal.Skeleton
import proofs.«100625_j26663156974292_2_alg».proof.Proof.Gen.KernelIdeal.Points
import proofs.«100625_j26663156974292_2_alg».proof.Proof.KI.Region0
import proofs.«100625_j26663156974292_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (the projection call's entry contents). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the projection call: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the aggregation call, entered from the contents the projection call left. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched; the result is the aggregation pipeline's final array -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl
theorem V1_main_arg1 (c : Dev nD) : V1 m ρ c main_arg1 = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = V1 m ρ c main_arg1 := (W2_arr m ρ c 0).trans (((dat1 (V1 m ρ) c).arrAt_in 0 rfl _).trans (A_eq1 (V1 m ρ) c 0))
    _ = m ((c : Thread nD τ).loc main_arg1) := V1_main_arg1 m ρ c
/-- The projected array the aggregation call is entered from is the projection pipeline's final array. -/
theorem V1_main_v0 (c : Dev nD) : V1 m ρ c main_v0 = (dat0 (V0 m ρ) c).arrAt 3 cfg0.N := W1_arr m ρ c 3
/-- The result at the end is the aggregation pipeline's final array. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both calls: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The calls as segments -/

set_option backward.isDefEq.respectTransparency.types false in
/-- The projection call over the thread state: entered from every outliving buffer at the launch contents, left at the
    contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation call over the thread state: entered from the contents the projection call left, left at the final
    contents.  Its invariant starts as the plain one and ends by forgetting what the scratch holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin1 (V1 m ρ) c)
    unfold Pipeline.ΦA
    refine (?_ : (_ : sProp 𝕄) ⊢ _)
    iintro ⟨Hp, -, Hr⟩
    isplitl [Hr]; · iexact Hr
    iexact Hp
  hout c := by
    refine BI.Entails.trans (hout1 (V1 m ρ) c) ?_
    rw [Pipeline.ownSems0_none]; unfold Pipeline.ΦA
    refine (?_ : (_ : sProp 𝕄) ⊢ _)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .region (reg0 m ρ), .region (reg1 m ρ) ]

set_option backward.isDefEq.respectTransparency.types false in
/-- From any memory with zero counters, every weakly fair execution of the program terminates, nothing faulting, and in
    every final state each buffer that outlives the calls holds the fold's last value. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result named: the aggregation pipeline's final array, and the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Fr

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Payloads.lean ====
/-
  The three values the kernel's two functions store, read at a coordinate pair, on the extended reals.

  On the extended reals a narrowing of the number format is the identity, and a reshaping to the same shape changes
  nothing.  So:
  * the projection's stored tile at (p, c) is the matrix product of the feature tile with the weights into a zero
    accumulator, Σ_l X(p, l) · W(l, c), plus the bias, which is a vector of 256 entries laid out as one row and
    repeated over all 2048 rows, hence b(c) whatever the row p;
  * the aggregation's initial accumulator is the zero word spread over the tile: 0 at every (p, c);
  * the aggregation's updated accumulator at (p, c) is the old accumulator there plus the matrix product of the
    adjacency tile with the projected tile into a zero accumulator, Σ_j A(p, j) · H(j, c).
-/
import proofs.«100625_j26663156974292_2_alg».proof.Proof.Gen.KernelIdeal.Skeleton
import proofs.«100625_j26663156974292_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The projection's stored tile at (p, c): row p of the feature tile against column c of the weights, plus the bias
    at c. -/
theorem pay0_apply (v0 : Vec Ideal S2048x512 .f32) (v2 : Vec Ideal S512x256 .f32) (v5 : Vec Ideal S256 .f32)
    (p : Fin 2048) (c : Fin 256) :
    Cert.KernelIdeal.Gen.k0_pay1 (F := Ideal) v0 v2 v5 (ix2 p c)
      = (∑ l : Fin 512, v0 (ix2 p l) * v2 (ix2 l c)) + v5 (ix1 c) := by
  -- the product into the zero accumulator, at (p, c)
  have hm : FloatOps.matmul (DotDims.plain 2048 512 256) none
        (truncf .bf16 (v0 : FVec Ideal ⟨2, ![2048, 512]⟩ .f32) bitsLt_bf16_f32)
        (truncf .bf16 (v2 : FVec Ideal ⟨2, ![512, 256]⟩ .f32) bitsLt_bf16_f32)
        (constant (F := Ideal) ⟨2, ![2048, 256]⟩ .f32 0x00000000#32) (ix2 p c)
      = ∑ l : Fin 512, v0 (ix2 p l) * v2 (ix2 l c) :=
    Cert.Lib.PlainMatmul.plain_matmul_zero_apply _ _ p c
  -- the bias: one row of 256 entries repeated over the rows
  have hb : broadcastTo (⟨2, ![2048, 256]⟩ : Shape)
        (shapeCast (⟨2, ![1, 256]⟩ : Shape) (v5 : FVec Ideal ⟨1, ![256]⟩ .f32) shapeCasts_S256_S1x256)
        broadcasts_S1x256_S2048x256 (ix2 p c) = v5 (ix1 c) :=
    (broadcastTo_1b_ab_apply _ broadcasts_S1x256_S2048x256 p c).trans
      (shapeCast_a_1a_apply (v5 : FVec Ideal ⟨1, ![256]⟩ .f32) shapeCasts_S256_S1x256 0 c)
  exact congrArg₂ (· + ·) hm hb

/-- The aggregation's initial accumulator is zero at every coordinate pair. -/
theorem pay_zero_apply (p : Fin 1024) (c : Fin 256) :
    Cert.KernelIdeal.Gen.k1_pay1 (F := Ideal) (ix2 p c) = 0 := by
  unfold Cert.KernelIdeal.Gen.k1_pay1
  rw [shapeCast_self]
  exact Ideal.ofBits_zero_f32

/-- The aggregation's updated accumulator at (p, c): the old accumulator there plus row p of the adjacency tile against
    column c of the projected tile. -/
theorem pay_acc_apply (v3 : Vec Ideal S1024x2048 .f32) (v8 : Vec Ideal S2048x256 .bf16) (v10 : Vec Ideal S1024x256 .f32)
    (p : Fin 1024) (c : Fin 256) :
    Cert.KernelIdeal.Gen.k1_pay2 (F := Ideal) v3 v8 v10 (ix2 p c)
      = v10 (ix2 p c) + ∑ j : Fin 2048, v3 (ix2 p j) * v8 (ix2 j c) := by
  have hm : FloatOps.matmul (φ₁ := .bf16) (φ₂ := .bf16) (DotDims.plain 1024 2048 256) none
        (truncf .bf16 (v3 : FVec Ideal ⟨2, ![1024, 2048]⟩ .f32) bitsLt_bf16_f32)
        (v8 : FVec Ideal ⟨2, ![2048, 256]⟩ .bf16)
        (constant (F := Ideal) ⟨2, ![1024, 256]⟩ .f32 0x00000000#32) (ix2 p c)
      = ∑ j : Fin 2048, v3 (ix2 p j) * v8 (ix2 j c) :=
    Cert.Lib.PlainMatmul.plain_matmul_zero_apply (φ₁ := .bf16) (φ₂ := .bf16) _ _ p c
  unfold Cert.KernelIdeal.Gen.k1_pay2
  rw [shapeCast_self, shapeCast_self]
  exact congrArg (fun t => v10 (ix2 p c) + t) hm

end Cert.KernelIdeal.Pay

end
-- ==== Proof.Spec.lean ====
/-
  The mathematics of one graph-convolution layer, on the extended reals.

  Inputs: node features X (16384 × 512), a dense adjacency A (16384 × 16384), weights W (512 × 256), bias b (256).
  The layer first projects every node, H(p, c) = Σ_l X(p, l) · W(l, c) + b(c), and then aggregates over all nodes,
  O(r, c) = Σ_k A(r, k) · H(k, c).  A tiled evaluation walks the 16384 neighbours k in 8 consecutive tiles of 2048
  and adds each tile's partial sum to an accumulator that starts from zero; since addition of extended reals is
  commutative and associative, the accumulator after the last tile is the whole sum (no finiteness is needed).
-/
import Idealize.ShloMosaic.PureOps.Ideal
import Idealize.ShloMosaic.Lib.ValueIdx

noncomputable section

open scoped BigOperators

open Idealize.ShloMosaic Idealize.ShloMosaic.ValueIdx

namespace Cert.Gcn

/-- The projected feature of node `p` in output channel `c`: row `p` of X against column `c` of W, plus the bias. -/
def proj (X : FVec Ideal ⟨2, ![16384, 512]⟩ .f32) (W : FVec Ideal ⟨2, ![512, 256]⟩ .f32) (b : FVec Ideal ⟨1, ![256]⟩ .f32)
    (p : Fin 16384) (c : Fin 256) : EReal :=
  (∑ l : Fin 512, X (ix2 p l) * W (ix2 l c)) + b (ix1 c)

/-- The aggregated feature of node `r` in channel `c`: row `r` of A against the projected features of every node. -/
def agg (X : FVec Ideal ⟨2, ![16384, 512]⟩ .f32) (A : FVec Ideal ⟨2, ![16384, 16384]⟩ .f32)
    (W : FVec Ideal ⟨2, ![512, 256]⟩ .f32) (b : FVec Ideal ⟨1, ![256]⟩ .f32) (r : Fin 16384) (c : Fin 256) : EReal :=
  ∑ k : Fin 16384, A (ix2 r k) * proj X W b k c

/-- The layer's output as an array. -/
def aggArr (X : FVec Ideal ⟨2, ![16384, 512]⟩ .f32) (A : FVec Ideal ⟨2, ![16384, 16384]⟩ .f32)
    (W : FVec Ideal ⟨2, ![512, 256]⟩ .f32) (b : FVec Ideal ⟨1, ![256]⟩ .f32) : FVec Ideal ⟨2, ![16384, 256]⟩ .f32 :=
  fun i => agg X A W b ⟨(i 0).val, (i 0).isLt⟩ ⟨(i 1).val, (i 1).isLt⟩

/-- The partial sum of `g` over the `k`-th tile of 2048 consecutive neighbours. -/
def tileSum (g : Fin 16384 → EReal) (k : ℕ) (hk : k < 8) : EReal :=
  ∑ j : Fin 2048, g ⟨k * 2048 + j.val, by have := j.isLt; omega⟩

/-- The accumulator after tile `k`: zero plus the first tile's sum, then one tile's sum added per step. -/
def accUpTo (g : Fin 16384 → EReal) : (k : ℕ) → k < 8 → EReal
  | 0, h => 0 + tileSum g 0 h
  | k + 1, h => accUpTo g k (Nat.lt_of_succ_lt h) + tileSum g (k + 1) h

end Cert.Gcn

end
-- ==== Proof.LibSliceRead.lean ====
/-
  A general fact about reading a buffer through a rectangle of it.
-/
import Idealize.ShloMosaic.Signature.View

namespace Idealize.ShloMosaic.View

variable {sig : RefSig} {κ : Kind} {Val : EltTy → Type}

/-- What a rectangle of a whole buffer reads off the buffer's contents `f`, at an index `x` of the rectangle: the
    contents at the buffer index the rectangle sends `x` to. -/
theorem read_slice_whole_apply (b : Ref sig κ) (r : Rect b.ty.shape) (f : b.ty.Contents Val) (x : r.shape.Idx) :
    ((View.whole b).slice r).read Val f x = f (r.emb x) := rfl

end Idealize.ShloMosaic.View
-- ==== Proof.Val0.lean ====
/-
  The projection call's output array after the call, as one function of the arrays the call finds.

  The call walks 8 points.  Point t stages rows 2048·t … 2048·t + 2047 of X, the whole of W and the whole of b; its body
  stores, at (p, c) of the output's staging buffer, Σ_l X(2048·t + p, l) · W(l, c) + b(c); and the pipeline writes that
  buffer back as rows 2048·t … 2048·t + 2047 of the output.  So what point t writes back is block t of the projected
  features H(r, c) = Σ_l X(r, l) · W(l, c) + b(c) of the specification.  Row r of the output lies in the block of point
  r / 2048, so the 8 blocks cover the array, and the array ends holding H everywhere.
-/
import proofs.«100625_j26663156974292_2_alg».proof.Proof.KI.Region0
import proofs.«100625_j26663156974292_2_alg».proof.Proof.Payloads
import proofs.«100625_j26663156974292_2_alg».proof.Proof.Spec
import proofs.«100625_j26663156974292_2_alg».proof.Proof.LibSliceRead
import Idealize.ShloMosaic.Lib.Pipeline.Value
import Idealize.ShloMosaic.Lib.ValueIdx

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The block indices of the four windows at point t: X's and the output's block is the t-th block of rows, W's and
    b's is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The projected features of the specification, as an array over the output's indices. -/
abbrev G0 (c : Dev nD) : S16384x256.Idx → EReal :=
  fun i => Cert.Gcn.proj (V c main_arg0) (V c main_arg2) (V c main_arg3) ⟨(i 0).val, (i 0).isLt⟩ ⟨(i 1).val, (i 1).isLt⟩

/-- That array at an index whose coordinates are r and q. -/
theorem G0_at (c : Dev nD) (k : S16384x256.Idx) (r : Fin 16384) (q : Fin 256) (h0 : (k 0).val = r.val) (h1 : (k 1).val = q.val) :
    G0 V c k = Cert.Gcn.proj (V c main_arg0) (V c main_arg2) (V c main_arg3) r q := by
  show Cert.Gcn.proj _ _ _ ⟨(k 0).val, (k 0).isLt⟩ ⟨(k 1).val, (k 1).isLt⟩ = _
  congr 1 <;> exact Fin.ext ‹_›

/-- Block t of X at (p, l) is X at row 2048·t + p. -/
theorem iblk0_0_apply (c : Dev nD) (t : Fin cfg0.N) (p : Fin 2048) (l : Fin 512) (r : Fin 16384)
    (hr : r.val = 2048 * t.val + p.val) :
    iblk0 V c 0 t (ix2 p l) = V c main_arg0 (ix2 r l) := by
  obtain ⟨e0, e1, -⟩ := idx_facts t
  unfold iblk0
  refine (View.read_slice_whole_apply _ _ _ _).trans (congrArg (V c main_arg0) ?_)
  funext a; apply Fin.ext
  match a with
  | ⟨0, _⟩ => show win0_0.index t (0 : Fin 2) * 2048 + 1 * p.val = r.val; rw [e0, hr]; omega
  | ⟨1, _⟩ => show win0_0.index t (1 : Fin 2) * 512 + 1 * l.val = l.val; rw [e1]; omega

/-- The staged W is W. -/
theorem iblk0_1_apply (c : Dev nD) (t : Fin cfg0.N) (l : Fin 512) (q : Fin 256) :
    iblk0 V c 1 t (ix2 l q) = V c main_arg2 (ix2 l q) := by
  obtain ⟨-, -, e2, e3, -⟩ := idx_facts t
  unfold iblk0
  refine (View.read_slice_whole_apply _ _ _ _).trans (congrArg (V c main_arg2) ?_)
  funext a; apply Fin.ext
  match a with
  | ⟨0, _⟩ => show win0_1.index t (0 : Fin 2) * 512 + 1 * l.val = l.val; rw [e2]; omega
  | ⟨1, _⟩ => show win0_1.index t (1 : Fin 2) * 256 + 1 * q.val = q.val; rw [e3]; omega

/-- The staged b is b. -/
theorem iblk0_2_apply (c : Dev nD) (t : Fin cfg0.N) (q : Fin 256) :
    iblk0 V c 2 t (ix1 q) = V c main_arg3 (ix1 q) := by
  obtain ⟨-, -, -, -, e4, -⟩ := idx_facts t
  unfold iblk0
  refine (View.read_slice_whole_apply _ _ _ _).trans (congrArg (V c main_arg3) ?_)
  funext a; apply Fin.ext
  match a with
  | ⟨0, _⟩ => show win0_2.index t (0 : Fin 1) * 256 + 1 * q.val = q.val; rw [e4]; omega

/-- The body's payload at point t, at (p, q): the projected feature of node 2048·t + p in channel q. -/
theorem pay_at (c : Dev nD) (t : Fin cfg0.N) (p : Fin 2048) (q : Fin 256) (r : Fin 16384)
    (hr : r.val = 2048 * t.val + p.val) :
    k0_pay1 (F := Ideal) (iblk0 V c 0 t) (iblk0 V c 1 t) (iblk0 V c 2 t) (ix2 p q)
      = Cert.Gcn.proj (V c main_arg0) (V c main_arg2) (V c main_arg3) r q := by
  refine (Cert.KernelIdeal.Pay.pay0_apply _ _ _ p q).trans ?_
  unfold Cert.Gcn.proj
  rw [iblk0_2_apply]
  refine congrArg (fun s => s + V c main_arg3 (ix1 q)) ?_
  exact Finset.sum_congr rfl fun l _ => by rw [iblk0_0_apply V c t p l r hr, iblk0_1_apply]

/-- WHAT POINT t WRITES BACK is block t of the projected features. -/
theorem flushed_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S2048x512) hz2, View.ld_unit_zero (S := S512x256) hz2, View.ld_unit_zero (S := S256) hz1]
  funext j
  obtain ⟨p, q, rfl⟩ : ∃ (p : Fin 2048) (q : Fin 256), j = ix2 p q := ⟨j 0, j 1, eq_ix2 j⟩
  obtain ⟨-, -, -, -, -, e5, e6⟩ := idx_facts t
  have ht : t.val < 8 := lt_of_lt_of_eq t.isLt N_0
  have hp : p.val < 2048 := p.isLt
  refine (pay_at V c t p q ⟨2048 * t.val + p.val, by omega⟩ rfl).trans ?_
  show _ = G0 V c (((cfg0.win 3).rect t).emb (ix2 p q))
  refine (G0_at V c _ _ _ ?_ ?_).symm
  · show win0_3.index t (0 : Fin 2) * 2048 + 1 * p.val = 2048 * t.val + p.val; rw [e5]; omega
  · show win0_3.index t (1 : Fin 2) * 256 + 1 * q.val = q.val; rw [e6]; omega

/-- An index whose row lies among rows 2048·t … 2048·t + 2047 is in point t's block. -/
theorem mem_blk (t : Fin cfg0.N) (i : S16384x256.Idx) (h0 : t.val * 2048 ≤ (i 0).val) (h0' : (i 0).val < t.val * 2048 + 2048) :
    i ∈ ((cfg0.win 3).blk t).view.set := by
  obtain ⟨-, -, -, -, -, e5, e6⟩ := idx_facts t
  have h1 : (i 1).val < 256 := (i 1).isLt
  show i ∈ ((View.whole main_v0).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e5]; exact ⟨h0, h0'⟩
  | ⟨1, _⟩ =>
    show win0_3.index t (1 : Fin 2) * 256 ≤ (i 1).val ∧ (i 1).val < win0_3.index t (1 : Fin 2) * 256 + 256
    rw [e6]; omega

/-- Row r of the output lies in the block of point r / 2048: the blocks cover the array. -/
theorem cover (i : S16384x256.Idx) :
    ∃ t : Fin cfg0.N, (cfg0.win 3).flush t = true ∧ i ∈ ((cfg0.win 3).blk t).view.set := by
  have h0 : (i 0).val < 16384 := (i 0).isLt
  have hlt : (i 0).val / 2048 < cfg0.N := lt_of_lt_of_eq (show (i 0).val / 2048 < 8 by omega) N_0.symm
  exact ⟨⟨(i 0).val / 2048, hlt⟩, flush0_3 _, mem_blk ⟨(i 0).val / 2048, hlt⟩ i
    (show (i 0).val / 2048 * 2048 ≤ (i 0).val by omega) (show (i 0).val < (i 0).val / 2048 * 2048 + 2048 by omega)⟩

/-- THE OUTPUT ARRAY after the call: the projected features of the specification, of the arrays the call finds. -/
theorem final0 (c : Dev nD) :
    (Cert.KernelIdeal.Fr.dat0 (F := Ideal) V c).arrAt 3 cfg0.N
      = fun i => Cert.Gcn.proj (V c main_arg0) (V c main_arg2) (V c main_arg3) ⟨(i 0).val, (i 0).isLt⟩ ⟨(i 1).val, (i 1).isLt⟩ :=
  (dat0 (F := Ideal) V c).arrAt_eq_of_cover 3 (G0 V c) (fun t _ => flushed_eq V c t) (cover)

end Cert.KernelIdeal.Val

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.TileSums.lean ====
/-
  The tiled accumulation of a sum over 16384 neighbours.

  The neighbours are walked in 8 consecutive tiles of 2048.  The accumulator starts from zero and receives one tile's
  partial sum per step, so after step k it holds the sum of the tile sums of tiles 0, …, k.  After the last tile (k = 7)
  it holds the sum over all 8 tiles, and a sum over 8 · 2048 consecutive indices cut into 8 blocks of 2048 is the whole
  sum.  Only commutativity and associativity of addition on the extended reals are used; nothing is assumed finite.
-/
import proofs.«100625_j26663156974292_2_alg».proof.Proof.Spec
import proofs.«100625_j26663156974292_2_alg».proof.Proof.LibBlockSum

noncomputable section

open scoped BigOperators

namespace Cert.Gcn

/-- The first step: zero plus the first tile's sum is the first tile's sum. -/
theorem accUpTo_zero (g : Fin 16384 → EReal) (h : 0 < 8) : accUpTo g 0 h = tileSum g 0 h :=
  zero_add _

/-- A later step adds the next tile's sum to the accumulator. -/
theorem accUpTo_succ (g : Fin 16384 → EReal) (k : ℕ) (h : k + 1 < 8) :
    accUpTo g (k + 1) h = accUpTo g k (Nat.lt_of_succ_lt h) + tileSum g (k + 1) h :=
  rfl

/-- After step k the accumulator is the sum of the tile sums of tiles 0, …, k. -/
theorem accUpTo_eq_sum (g : Fin 16384 → EReal) :
    ∀ (k : ℕ) (h : k < 8), accUpTo g k h = ∑ i : Fin (k + 1), tileSum g i.val (lt_of_lt_of_le i.isLt h)
  | 0, h => by
      rw [accUpTo_zero, Fin.sum_univ_one]
      rfl
  | k + 1, h => by
      rw [accUpTo_succ, Fin.sum_univ_castSucc, accUpTo_eq_sum g k (Nat.lt_of_succ_lt h)]
      rfl

/-- A tile's sum is the inner sum of the block form of the whole sum: position j of tile k is the neighbour
    k · 2048 + j, whichever proof bounds it. -/
theorem tileSum_eq_block (g : Fin 16384 → EReal) (k : Fin 8) (hlt : ∀ j : Fin 2048, k.val * 2048 + j.val < 16384) :
    tileSum g k.val k.isLt = ∑ j : Fin 2048, g ⟨k.val * 2048 + j.val, hlt j⟩ :=
  rfl

/-- After the last tile the accumulator holds the sum over all 16384 neighbours. -/
theorem accUpTo_last (g : Fin 16384 → EReal) : accUpTo g 7 (by decide) = ∑ j : Fin 16384, g j := by
  rw [accUpTo_eq_sum g 7 (by decide), Cert.BlockSum.sum_blocks_of_eq 8 2048 16384 rfl g]
  exact Finset.sum_congr rfl fun k _ => tileSum_eq_block g k _

end Cert.Gcn

end
-- ==== Proof.Val1.lean ====
/-
  What the aggregation call leaves in the result array, on the extended reals.

  At the point of row block i and tile k the body adds to the accumulator the product of tile (i, k) of A with rows
  2048·k … 2048·k + 2047 of the projected array H: entry (p, q) gains Σ_l A(1024·i + p, 2048·k + l) · H(2048·k + l, q),
  the k-th tile sum of the terms g(j) = A(1024·i + p, j) · H(j, q).  The accumulator starts from zero at k = 0, so after
  tile k it holds zero plus the first k + 1 tile sums, added left to right; after the last tile that is the whole sum
  Σ_j g(j), and it is what the body copies out and the pipeline writes back as rows 1024·i … of the result.  The sixteen
  written-back blocks tile the result array.
-/
import proofs.«100625_j26663156974292_2_alg».proof.Proof.KI.Region1
import proofs.«100625_j26663156974292_2_alg».proof.Proof.Payloads
import proofs.«100625_j26663156974292_2_alg».proof.Proof.Spec
import proofs.«100625_j26663156974292_2_alg».proof.Proof.TileSums
import Idealize.ShloMosaic.Lib.Pipeline.Value
import Idealize.ShloMosaic.Lib.ValueIdx
import Idealize.ShloMosaic.Lib.Tactic

set_option maxRecDepth 16384

noncomputable section

open scoped BigOperators

open Idealize.ShloMosaic Idealize.ShloMosaic.TcCoe Idealize.ShloMosaic.Tactic Idealize.SL.Sem Idealize.ShloMosaic.ValueIdx
open Idealize.ShloMosaic.Pipeline (Dat)

namespace Cert.KernelIdeal.Val1

open Cert.KernelIdeal Cert.KernelIdeal.Gen Cert.KernelIdeal.Fr

theorem hz2 : (![0, 0] : Fin 2 → Nat) = fun _ => 0 := funext fun a => by fin_cases a <;> rfl

/-! ## The pieces the body's runs found, as values -/

section Pieces

variable {F : FTy → Type} [FloatOps F]

/-- Rows 2048·k … of the resident projected array: the rectangle the body loads at tile k. -/
abbrev hrect (i : grid1.Coords) : Rect S16384x256 := Rect.unit (s := S16384x256) (k1_off1 i) S2048x256.size (k1_off1_inb i)

/-- A middle tile leaves in the scratch the accumulate payload of the staged tile, the loaded rows and the scratch's
    earlier contents. -/
theorem sout_B_eq (c : Dev nD) (i : grid1.Coords) (a2 : Memref sig .tc .vmem S1024x2048 .f32) (h2 : a2.IsWhole) (a3 : Memref sig .tc .vmem S16384x256 .bf16) (h3 : a3.IsWhole) (a4 : Memref sig .tc .vmem S1024x256 .f32) (h4 : a4.IsWhole) (a5 : Memref sig .tc .vmem S1024x256 .f32) (h5 : a5.IsWhole) (hc0 : ¬cond1_0 i) (hc1 : ¬cond1_1 i)
    (x0 : Vec F S1024x2048 .f32) (x1 : Vec F S16384x256 .bf16) (xs0 : Vec F S1024x256 .f32) :
    sout1_B c i a2 h2 a3 h3 a4 h4 a5 h5 hc0 hc1 x0 x1 xs0 = k1_pay2 x0 (View.ld x1 (hrect i)) xs0 := by
  unfold sout1_B
  rw [View.read_writes_eq_canon _ _ _ (scover1_B c i a2 h2 a3 h3 a4 h4 a5 h5 hc0 hc1 x0 x1 xs0)]
  unfold kernelRun1_B
  dsimp only
  rw [View.canon_unit_zero hz2]
  simp only [View.readAt_eq_ld, h2.read_unread, h3.read_unread, h5.read_unread, View.ld_unit_zero (S := S1024x2048) hz2, View.ld_unit_zero (S := S1024x256) hz2]

/-- The first tile leaves the same payload over the zeros it has just stored. -/
theorem sout_A_eq (c : Dev nD) (i : grid1.Coords) (a2 : Memref sig .tc .vmem S1024x2048 .f32) (h2 : a2.IsWhole) (a3 : Memref sig .tc .vmem S16384x256 .bf16) (h3 : a3.IsWhole) (a4 : Memref sig .tc .vmem S1024x256 .f32) (h4 : a4.IsWhole) (a5 : Memref sig .tc .vmem S1024x256 .f32) (h5 : a5.IsWhole) (hc0 : cond1_0 i) (hc1 : ¬cond1_1 i)
    (x0 : Vec F S1024x2048 .f32) (x1 : Vec F S16384x256 .bf16) :
    sout1_A c i a2 h2 a3 h3 a4 h4 a5 h5 hc0 hc1 x0 x1 = k1_pay2 x0 (View.ld x1 (hrect i)) k1_pay1 := by
  unfold sout1_A
  rw [View.read_writes_eq_canon _ _ _ (scover1_A c i a2 h2 a3 h3 a4 h4 a5 h5 hc0 hc1 x0 x1)]
  unfold kernelRun1_A
  dsimp only
  sl_unfold_run_names
  rw [View.canon_cons_unit_zero (S := S1024x256) hz2, View.readCov_unit_zero (S := S1024x256) _ hz2]
  simp only [View.readAt_eq_ld, h2.read_unread, h3.read_unread, View.ld_unit_zero (S := S1024x2048) hz2]

/-- The last tile leaves that payload in the scratch, -/
theorem sout_C_eq (c : Dev nD) (i : grid1.Coords) (a2 : Memref sig .tc .vmem S1024x2048 .f32) (h2 : a2.IsWhole) (a3 : Memref sig .tc .vmem S16384x256 .bf16) (h3 : a3.IsWhole) (a4 : Memref sig .tc .vmem S1024x256 .f32) (h4 : a4.IsWhole) (a5 : Memref sig .tc .vmem S1024x256 .f32) (h5 : a5.IsWhole) (hc0 : ¬cond1_0 i) (hc1 : cond1_1 i)
    (x0 : Vec F S1024x2048 .f32) (x1 : Vec F S16384x256 .bf16) (xs0 : Vec F S1024x256 .f32) :
    sout1_C c i a2 h2 a3 h3 a4 h4 a5 h5 hc0 hc1 x0 x1 xs0 = k1_pay2 x0 (View.ld x1 (hrect i)) xs0 := by
  unfold sout1_C
  rw [View.read_writes_eq_canon _ _ _ (scover1_C c i a2 h2 a3 h3 a4 h4 a5 h5 hc0 hc1 x0 x1 xs0)]
  unfold kernelRun1_C
  dsimp only
  sl_unfold_run_names
  rw [View.canon_unit_zero hz2]
  simp only [View.readAt_eq_ld, h2.read_unread, h3.read_unread, h5.read_unread, View.ld_unit_zero (S := S1024x2048) hz2, View.ld_unit_zero (S := S1024x256) hz2]

/-- and copies it into the output's staging buffer. -/
theorem out_C_eq (c : Dev nD) (i : grid1.Coords) (a2 : Memref sig .tc .vmem S1024x2048 .f32) (h2 : a2.IsWhole) (a3 : Memref sig .tc .vmem S16384x256 .bf16) (h3 : a3.IsWhole) (a4 : Memref sig .tc .vmem S1024x256 .f32) (h4 : a4.IsWhole) (a5 : Memref sig .tc .vmem S1024x256 .f32) (h5 : a5.IsWhole) (hc0 : ¬cond1_0 i) (hc1 : cond1_1 i)
    (x0 : Vec F S1024x2048 .f32) (x1 : Vec F S16384x256 .bf16) (xs0 : Vec F S1024x256 .f32) :
    out1_C c i a2 h2 a3 h3 a4 h4 a5 h5 hc0 hc1 x0 x1 xs0 = k1_pay2 x0 (View.ld x1 (hrect i)) xs0 := by
  unfold out1_C
  rw [View.read_writes_eq_canon _ _ _ (cover1_C c i a2 h2 a3 h3 a4 h4 a5 h5 hc0 hc1 x0 x1 xs0)]
  unfold kernelRun1_C
  dsimp only
  sl_unfold_run_names
  rw [View.canon_unit_zero hz2, View.readCov_unit_zero (S := S1024x256) _ hz2]
  simp only [View.readAt_eq_ld, h2.read_unread, h3.read_unread, h5.read_unread, View.ld_unit_zero (S := S1024x2048) hz2, View.ld_unit_zero (S := S1024x256) hz2]

end Pieces

/-! ## Where the windows' blocks sit -/

/-- The block indices over the grid, decided once: tile (t / 8, t mod 8) of A, the whole projected array, row block t / 8
    of the result; and the second grid coordinate of point t is t mod 8. -/
theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem coord1 : ∀ t : Fin cfg1.N, ((grid1.coords t) 1).val = t.val % 8 :=
  (by decide +kernel : ∀ t : Fin grid1.N, ((grid1.coords t) 1).val = t.val % 8)

/-- The term neighbour j contributes to entry (r, q) of the result: A(r, j) · H(j, q). -/
def term (A : Vec Ideal S16384x16384 .f32) (Hh : Vec Ideal S16384x256 .bf16) (r : Fin 16384) (q : Fin 256) : Fin 16384 → EReal :=
  fun j => A (ix2 r j) * Hh (ix2 j q)

section Acc

variable (V : (c : Dev nD) → (b : Ref sig .tc) → Buf (Elt Ideal) ((c : Thread nD τ).loc b))

/-- Entry (p, l) of the tile of A staged at the point of row block ib and tile k. -/
theorem blkA (c : Dev nD) (t : Fin cfg1.N) (ib k : ℕ) (hk : k < 8) (ht : t.val = 8 * ib + k) (p : Fin 1024) (l : Fin 2048)
    (hr : 1024 * ib + p.val < 16384) (hc : k * 2048 + l.val < 16384) :
    iblk1 V c 0 t (ix2 p l) = V c main_arg1 (ix2 ⟨1024 * ib + p.val, hr⟩ ⟨k * 2048 + l.val, hc⟩) := by
  unfold iblk1
  rw [View.read_apply]
  show V c main_arg1 _ = V c main_arg1 _
  refine congrArg (V c main_arg1) (funext fun a => Fin.ext ?_)
  match a with
  | ⟨0, _⟩ => show win1_0.index t 0 * 1024 + 1 * p.val = 1024 * ib + p.val; rw [(idx1_0 t).1]; omega
  | ⟨1, _⟩ => show win1_0.index t 1 * 2048 + 1 * l.val = k * 2048 + l.val; rw [(idx1_0 t).2]; omega

/-- Entry (l, q) of the rows of the resident projected array the body loads at that point. -/
theorem blkH (c : Dev nD) (t : Fin cfg1.N) (ib k : ℕ) (hk : k < 8) (ht : t.val = 8 * ib + k) (l : Fin 2048) (q : Fin 256)
    (hc : k * 2048 + l.val < 16384) :
    View.ld (iblk1 V c 1 t) (hrect (grid1.coords t)) (ix2 l q) = V c main_v0 (ix2 ⟨k * 2048 + l.val, hc⟩ q) := by
  show iblk1 V c 1 t ((hrect (grid1.coords t)).emb (ix2 l q)) = _
  unfold iblk1
  rw [View.read_apply]
  show V c main_v0 _ = V c main_v0 _
  refine congrArg (V c main_v0) (funext fun a => Fin.ext ?_)
  have hco := coord1 t
  match a with
  | ⟨0, _⟩ =>
    show win1_1.index t 0 * 16384 + 1 * (k1_off1 (grid1.coords t) 0 + 1 * l.val) = k * 2048 + l.val
    rw [(idx1_1 t).1, k1_off1_eq]
    show 0 * 16384 + 1 * (2048 * ((grid1.coords t) 1).val + 1 * l.val) = k * 2048 + l.val
    rw [hco]; omega
  | ⟨1, _⟩ =>
    show win1_1.index t 1 * 256 + 1 * (k1_off1 (grid1.coords t) 1 + 1 * q.val) = q.val
    rw [(idx1_1 t).2, k1_off1_eq]
    show 0 * 256 + 1 * (0 + 1 * q.val) = q.val
    omega

/-- One tile's product, read at (p, q), is the k-th tile sum of those terms. -/
theorem tile_eq (c : Dev nD) (t : Fin cfg1.N) (ib k : ℕ) (hk : k < 8) (ht : t.val = 8 * ib + k) (p : Fin 1024) (q : Fin 256)
    (hr : 1024 * ib + p.val < 16384) (x0 : Vec Ideal S1024x2048 .f32) (x1 : Vec Ideal S16384x256 .bf16)
    (hx0 : x0 = iblk1 V c 0 t) (hx1 : x1 = iblk1 V c 1 t) :
    ∑ l : Fin 2048, x0 (ix2 p l) * View.ld x1 (hrect (grid1.coords t)) (ix2 l q)
      = Cert.Gcn.tileSum (term (V c main_arg1) (V c main_v0) ⟨1024 * ib + p.val, hr⟩ q) k hk := by
  subst hx0; subst hx1
  unfold Cert.Gcn.tileSum term
  refine Finset.sum_congr rfl fun l _ => ?_
  have hl := l.isLt
  exact congrArg₂ (fun (a b : EReal) => a * b) (blkA V c t ib k hk ht p l hr (by omega)) (blkH V c t ib k hk ht l q (by omega))

/-- The accumulate payload read at (p, q). -/
theorem step_apply (i : grid1.Coords) (x0 : Vec Ideal S1024x2048 .f32) (x1 : Vec Ideal S16384x256 .bf16) (xs : Vec Ideal S1024x256 .f32)
    (p : Fin 1024) (q : Fin 256) :
    k1_pay2 (F := Ideal) x0 (View.ld x1 (hrect i)) xs (ix2 p q)
      = xs (ix2 p q) + ∑ l : Fin 2048, x0 (ix2 p l) * View.ld x1 (hrect i) (ix2 l q) :=
  Cert.KernelIdeal.Pay.pay_acc_apply x0 (View.ld x1 (hrect i)) xs p q

/-- THE ACCUMULATOR. After the point of row block ib and tile k the scratch holds, at (p, q), zero plus the first k + 1
    tile sums of the terms of entry (1024·ib + p, q): by induction on the tile. -/
theorem acc_eq (c : Dev nD) (ib : ℕ) : ∀ (k : ℕ) (hk : k < 8) (hn : 8 * ib + k < cfg1.N) (p : Fin 1024) (q : Fin 256)
    (hr : 1024 * ib + p.val < 16384),
    (outsAt1 V c (8 * ib + k) hn).2 (ix2 p q)
      = Cert.Gcn.accUpTo (term (V c main_arg1) (V c main_v0) ⟨1024 * ib + p.val, hr⟩ q) k hk
  | 0, hk, hn, p, q, hr => by
    have h0 : (⟨8 * ib + 0, hn⟩ : Fin cfg1.N).val % 8 = 0 := by dsimp only; omega
    have h1 : ¬ (⟨8 * ib + 0, hn⟩ : Fin cfg1.N).val % 8 = 7 := by dsimp only; omega
    rw [outsAt1_A V c ⟨8 * ib + 0, hn⟩ h0 h1]
    dsimp only
    rw [sout_A_eq, step_apply, Cert.KernelIdeal.Pay.pay_zero_apply]
    exact congrArg (fun x : EReal => 0 + x) (tile_eq V c ⟨8 * ib + 0, hn⟩ ib 0 hk rfl p q hr _ _ rfl rfl)
  | k + 1, hk, hn, p, q, hr => by
    have h0 : ¬ (⟨8 * ib + (k + 1), hn⟩ : Fin cfg1.N).val % 8 = 0 := by dsimp only; omega
    by_cases h1 : (⟨8 * ib + (k + 1), hn⟩ : Fin cfg1.N).val % 8 = 7
    · rw [outsAt1_C V c ⟨8 * ib + (k + 1), hn⟩ h0 h1]
      dsimp only
      rw [sout_C_eq, step_apply]
      exact congrArg₂ (fun (a b : EReal) => a + b) (acc_eq c ib k (Nat.lt_of_succ_lt hk) (Nat.lt_of_succ_lt hn) p q hr)
        (tile_eq V c ⟨8 * ib + (k + 1), hn⟩ ib (k + 1) hk rfl p q hr _ _ rfl rfl)
    · rw [outsAt1_B V c ⟨8 * ib + (k + 1), hn⟩ h0 h1]
      dsimp only
      rw [sout_B_eq, step_apply]
      exact congrArg₂ (fun (a b : EReal) => a + b) (acc_eq c ib k (Nat.lt_of_succ_lt hk) (Nat.lt_of_succ_lt hn) p q hr)
        (tile_eq V c ⟨8 * ib + (k + 1), hn⟩ ib (k + 1) hk rfl p q hr _ _ rfl rfl)

/-- What the last tile of row block ib copies into the output's staging buffer: at (p, q), the whole sum of the terms of
    entry (1024·ib + p, q). -/
theorem out_last (c : Dev nD) (t : Fin cfg1.N) (ib : ℕ) (ht : t.val = 8 * ib + 7) (p : Fin 1024) (q : Fin 256)
    (hr : 1024 * ib + p.val < 16384) :
    (outsAt1 V c t.val t.isLt).1 (ix2 p q) = ∑ j : Fin 16384, term (V c main_arg1) (V c main_v0) ⟨1024 * ib + p.val, hr⟩ q j := by
  have h0 : ¬ t.val % 8 = 0 := by omega
  have h1 : t.val % 8 = 7 := by omega
  have hlt := t.isLt
  have hn6 : 8 * ib + 6 < cfg1.N := by omega
  obtain ⟨n, hn⟩ := t
  dsimp only at ht
  subst ht
  rw [outsAt1_C V c ⟨8 * ib + 7, hn⟩ h0 h1]
  dsimp only
  rw [out_C_eq, step_apply]
  exact (congrArg₂ (fun (a b : EReal) => a + b) (acc_eq V c ib 6 (by decide) hn6 p q hr)
    (tile_eq V c ⟨8 * ib + 7, hn⟩ ib 7 (by decide) rfl p q hr _ _ rfl rfl)).trans
    (Cert.Gcn.accUpTo_last (term (V c main_arg1) (V c main_v0) ⟨1024 * ib + p.val, hr⟩ q))

end Acc

end Cert.KernelIdeal.Val1

end
-- ==== Proof.Val1Final.lean ====
/-
  The aggregation call's result array after the call, as one function of the arrays the call finds.

  The call walks a grid of 16 row blocks by 8 tiles, 128 points in all; point t works on row block t / 8 and tile
  t mod 8.  The result's staging buffer is written back only at the last tile of a row block, the points with
  t mod 8 = 7, as rows 1024·(t / 8) … 1024·(t / 8) + 1023 of the result, all 256 columns.  At such a point the buffer
  holds, at (p, q), the whole sum Σ_j A(1024·(t / 8) + p, j) · H(j, q) over the 16384 neighbours.  So what such a point
  writes back is block t / 8 of the array O(r, q) = Σ_j A(r, j) · H(j, q).  Row r lies in the block written back at
  point 8·(r / 1024) + 7, so the sixteen written-back blocks cover the result, which ends holding O everywhere.
-/
import proofs.«100625_j26663156974292_2_alg».proof.Proof.Val1
import proofs.«100625_j26663156974292_2_alg».proof.Proof.LibSliceRead
import Idealize.ShloMosaic.Lib.Pipeline.Value
import Idealize.ShloMosaic.Lib.ValueIdx

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Val1

open Cert.KernelIdeal Cert.KernelIdeal.Gen Cert.KernelIdeal.Fr

variable (V : (c : Dev nD) → (b : Ref sig .tc) → Buf (Elt Ideal) ((c : Thread nD τ).loc b))

/-- The aggregated array: entry (r, q) is the sum over the neighbours j of A(r, j) · H(j, q). -/
abbrev G1 (c : Dev nD) : S16384x256.Idx → EReal :=
  fun i => ∑ j : Fin 16384, term (V c main_arg1) (V c main_v0) ⟨(i 0).val, (i 0).isLt⟩ ⟨(i 1).val, (i 1).isLt⟩ j

/-- That array at an index whose coordinates are r and q: the sum of the terms of entry (r, q). -/
theorem G1_at (c : Dev nD) (k : S16384x256.Idx) (r : Fin 16384) (q : Fin 256) (h0 : (k 0).val = r.val) (h1 : (k 1).val = q.val) :
    G1 V c k = ∑ j : Fin 16384, term (V c main_arg1) (V c main_v0) r q j := by
  have er : (⟨(k 0).val, (k 0).isLt⟩ : Fin 16384) = r := Fin.ext h0
  have eq : (⟨(k 1).val, (k 1).isLt⟩ : Fin 256) = q := Fin.ext h1
  show ∑ j : Fin 16384, term (V c main_arg1) (V c main_v0) ⟨(k 0).val, (k 0).isLt⟩ ⟨(k 1).val, (k 1).isLt⟩ j = _
  rw [er, eq]

/-- Point t's block of an array f of the result's shape, read at (p, q), is f at the block's index for (p, q). -/
theorem read_blk1 (f : S16384x256.Idx → EReal) (t : Fin cfg1.N) (p : Fin 1024) (q : Fin 256) :
    ((cfg1.win 2).blk t).view.read (Elt Ideal) f (ix2 p q) = f (((cfg1.win 2).rect t).emb (ix2 p q)) :=
  rfl

/-- That index is row 1024·(t / 8) + p, column q. -/
theorem emb_blk1 (t : Fin cfg1.N) (p : Fin 1024) (q : Fin 256) :
    ((((cfg1.win 2).rect t).emb (ix2 p q)) 0).val = 1024 * (t.val / 8) + p.val
      ∧ ((((cfg1.win 2).rect t).emb (ix2 p q)) 1).val = q.val := by
  obtain ⟨e0, e1⟩ := idx1_2 t
  constructor
  · show win1_2.index t (0 : Fin 2) * 1024 + 1 * p.val = 1024 * (t.val / 8) + p.val; rw [e0]; omega
  · show win1_2.index t (1 : Fin 2) * 256 + 1 * q.val = q.val; rw [e1]; omega

/-- WHAT A WRITING POINT t WRITES BACK (t mod 8 = 7) is block t / 8 of the aggregated array. -/
theorem flushed_eq1 (c : Dev nD) (t : Fin cfg1.N) (hf : (cfg1.win 2).flush t = true) :
    (Cert.KernelIdeal.Fr.dat1 (F := Ideal) V c).flushed 2 t = ((cfg1.win 2).blk t).view.read (Elt Ideal) (G1 V c) := by
  have h7 : t.val % 8 = 7 := (flush1_2 t).mp hf
  have hN : t.val < 128 := lt_of_lt_of_eq t.isLt N_1
  show (cfg1.win 2).cut (grid1.coords t) ((dat1 V c).after 2 t) = _
  rw [Cert.KernelIdeal.Fr.after1_2]
  funext y
  obtain ⟨p, q, rfl⟩ : ∃ (p : Fin 1024) (q : Fin 256), y = ix2 p q := ⟨y 0, y 1, eq_ix2 y⟩
  have hp : p.val < 1024 := p.isLt
  have hr : 1024 * (t.val / 8) + p.val < 16384 := by omega
  refine (out_last V c t (t.val / 8) (by omega) p q hr).trans ?_
  refine Eq.trans ?_ (read_blk1 (G1 V c) t p q).symm
  exact (G1_at V c _ ⟨1024 * (t.val / 8) + p.val, hr⟩ q (emb_blk1 t p q).1 (emb_blk1 t p q).2).symm

/-- An index whose row lies among rows 1024·(t / 8) … 1024·(t / 8) + 1023 is in point t's block. -/
theorem mem_blk1 (t : Fin cfg1.N) (i : S16384x256.Idx) (h0 : t.val / 8 * 1024 ≤ (i 0).val)
    (h0' : (i 0).val < t.val / 8 * 1024 + 1024) : i ∈ ((cfg1.win 2).blk t).view.set := by
  obtain ⟨e0, e1⟩ := idx1_2 t
  have h1 : (i 1).val < 256 := (i 1).isLt
  show i ∈ ((View.whole main_v1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; exact ⟨h0, h0'⟩
  | ⟨1, _⟩ =>
    show win1_2.index t (1 : Fin 2) * 256 ≤ (i 1).val ∧ (i 1).val < win1_2.index t (1 : Fin 2) * 256 + 256
    rw [e1]; omega

/-- Row r of the result lies in the block written back at point 8·(r / 1024) + 7: the written-back blocks cover it. -/
theorem cover1 (i : S16384x256.Idx) :
    ∃ t : Fin cfg1.N, (cfg1.win 2).flush t = true ∧ i ∈ ((cfg1.win 2).blk t).view.set := by
  have h0 : (i 0).val < 16384 := (i 0).isLt
  have hlt : 8 * ((i 0).val / 1024) + 7 < cfg1.N := lt_of_lt_of_eq (show 8 * ((i 0).val / 1024) + 7 < 128 by omega) N_1.symm
  refine ⟨⟨8 * ((i 0).val / 1024) + 7, hlt⟩, (flush1_2 _).mpr (show (8 * ((i 0).val / 1024) + 7) % 8 = 7 by omega),
    mem_blk1 ⟨8 * ((i 0).val / 1024) + 7, hlt⟩ i ?_ ?_⟩
  · show (8 * ((i 0).val / 1024) + 7) / 8 * 1024 ≤ (i 0).val; omega
  · show (i 0).val < (8 * ((i 0).val / 1024) + 7) / 8 * 1024 + 1024; omega

/-- THE RESULT ARRAY after the call: the aggregated array, of the arrays the call finds. -/
theorem final1 (c : Dev nD) : (Cert.KernelIdeal.Fr.dat1 (F := Ideal) V c).arrAt 2 cfg1.N = G1 V c :=
  (dat1 (F := Ideal) V c).arrAt_eq_of_cover 2 (G1 V c) (flushed_eq1 V c) cover1

end Cert.KernelIdeal.Val1

end
-- ==== Proof.RefIsAgg.lean ====
/-
  The reference program computes the graph-convolution layer of the specification.

  The reference is two matrix products with a bias added in between: first X · W, to which the bias vector b, laid out as
  one row and repeated over all 16384 rows, is added; then A against that sum.  Read at an output index i = (r, c), the
  last product is the sum over the neighbour k of A(r, k) times the earlier sum at (k, c); that earlier sum at (k, c) is
  the sum over l of X(k, l) · W(l, c) plus b(c).  This is the aggregated projected feature of the specification,
  term by term: nothing is reordered, so the equality is a matter of reading each index function at its coordinates.
-/
import proofs.«100625_j26663156974292_2_alg».proof.Proof.Gen.ReferenceIdeal.Read
import proofs.«100625_j26663156974292_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The left index of the aggregation product at output index i and neighbour k is (row of i, k). -/
theorem lidx_v4_eq (i : S16384x256.Idx) (k : Fin 16384) :
    lidx_main_v4 i k = ix2 (⟨(i 0).val, (i 0).isLt⟩ : Fin 16384) k :=
  funext fun a => Fin.ext (by
    match a with
    | ⟨0, _⟩ => rfl
    | ⟨1, _⟩ => rfl)

/-- The left index of the projection product, at the aggregation's right index, is (k, l). -/
theorem lidx_v0_eq (i : S16384x256.Idx) (k : Fin 16384) (l : Fin 512) :
    lidx_main_v0 (ridx_main_v4 i k) l = ix2 k l :=
  funext fun a => Fin.ext (by
    match a with
    | ⟨0, _⟩ => rfl
    | ⟨1, _⟩ => rfl)

/-- The right index of the projection product, at the aggregation's right index, is (l, column of i). -/
theorem ridx_v0_eq (i : S16384x256.Idx) (k : Fin 16384) (l : Fin 512) :
    ridx_main_v0 (ridx_main_v4 i k) l = ix2 l (⟨(i 1).val, (i 1).isLt⟩ : Fin 256) :=
  funext fun a => Fin.ext (by
    match a with
    | ⟨0, _⟩ => rfl
    | ⟨1, _⟩ => rfl)

/-- The bias is read at the column of i, whatever the row. -/
theorem idx_bias_eq (i : S16384x256.Idx) (k : Fin 16384) :
    idx_main_v1 (idx_main_v2 (ridx_main_v4 i k)) = ix1 (⟨(i 1).val, (i 1).isLt⟩ : Fin 256) :=
  funext fun a => Fin.ext (by
    match a with
    | ⟨0, _⟩ => rfl)

/-- The reference's result is the layer's output array of the specification. -/
theorem ref_eq (x0 : (⟨S16384x512, .f32⟩ : BufTy).Contents (Elt Ideal)) (x1 : (⟨S16384x16384, .f32⟩ : BufTy).Contents (Elt Ideal))
    (x2 : (⟨S512x256, .f32⟩ : BufTy).Contents (Elt Ideal)) (x3 : (⟨S256, .f32⟩ : BufTy).Contents (Elt Ideal)) :
    Cert.ReferenceIdeal.Read.val_main_v4 (F := Ideal) x0 x1 x2 x3 = Cert.Gcn.aggArr x0 x1 x2 x3 := by
  funext i
  rw [val_main_v4_apply]
  show _ = ∑ k : Fin 16384, x1 (ix2 (⟨(i 0).val, (i 0).isLt⟩ : Fin 16384) k)
      * ((∑ l : Fin 512, x0 (ix2 k l) * x2 (ix2 l (⟨(i 1).val, (i 1).isLt⟩ : Fin 256)))
          + x3 (ix1 (⟨(i 1).val, (i 1).isLt⟩ : Fin 256)))
  refine Finset.sum_congr rfl fun k _ => ?_
  rw [val_main_v3_apply, val_main_v0_apply, val_main_v2_apply, val_main_v1_apply, lidx_v4_eq, idx_bias_eq]
  refine congrArg (fun t => x1 (ix2 (⟨(i 0).val, (i 0).isLt⟩ : Fin 16384) k) * t) ?_
  refine congrArg (fun t => t + x3 (ix1 (⟨(i 1).val, (i 1).isLt⟩ : Fin 256))) ?_
  exact Finset.sum_congr rfl fun l _ => by rw [lidx_v0_eq, ridx_v0_eq]

end Cert.ReferenceIdeal.RefValue

end
-- ==== Proof.lean ====
/-
  One graph-convolution layer, computed by two tiled kernel launches, against its plain matrix formula.

  The program projects the node features, H = X·W + b, in eight row tiles, and then aggregates, O = A·H, over a 16 × 8
  grid: for each block of 1024 output rows it walks the 16384 neighbours in eight tiles of 2048, adding each tile's
  product to an accumulator that starts from zero, and writes the accumulator out after the last tile.  The reference is
  O = A·(X·W + b) as two whole matrix products.

  Frames.  Both launches run to the end without a fault and write only the projected array and the result, so the four
  arguments end as launched; this holds at every float instance, hence for the program as printed and for its reading on
  the extended reals.  The reference is a straight line of host operations, and its frame is its run with the result
  dropped.

  Values, on the extended reals (where a change of float format is the identity).  The projection call leaves
  H(p, c) = Σ_l X(p, l)·W(l, c) + b(c); the aggregation call leaves, at (r, c), zero plus the eight tile sums of the terms
  A(r, j)·H(j, c) added left to right, which is Σ_j A(r, j)·H(j, c) because addition of extended reals is commutative and
  associative — no finiteness of the inputs is used.  The reference's two contractions read index by index are the same
  double sum.  The idealized program is the printed one read at the ideal instance: nothing was rewritten.
-/
import proofs.«100625_j26663156974292_2_alg».proof.Defs
import proofs.«100625_j26663156974292_2_alg».proof.Proof.Gen.Kernel
import proofs.«100625_j26663156974292_2_alg».proof.Proof.Gen.KernelIdeal
import proofs.«100625_j26663156974292_2_alg».proof.Proof.Gen.ReferenceIdeal
import proofs.«100625_j26663156974292_2_alg».proof.Proof.Gen.ReferenceIdeal.Run
import proofs.«100625_j26663156974292_2_alg».proof.Proof.Gen.ReferenceIdeal.Read
import proofs.«100625_j26663156974292_2_alg».proof.Proof.Gen.Pre_finite_inputs
import proofs.«100625_j26663156974292_2_alg».proof.Proof.K.Run
import proofs.«100625_j26663156974292_2_alg».proof.Proof.KI.Run
import proofs.«100625_j26663156974292_2_alg».proof.Proof.Val0
import proofs.«100625_j26663156974292_2_alg».proof.Proof.Val1Final
import proofs.«100625_j26663156974292_2_alg».proof.Proof.RefIsAgg
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Fr.frame m ρ
theorem frame_ki : Cert.frame_KernelIdeal := fun m ρ _ => Cert.KernelIdeal.Fr.frame m ρ
theorem frame_r : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-! ## The values -/

section Value

open Cert.KernelIdeal Cert.KernelIdeal.Fr

/-- The result array the two calls leave is the layer's output of the launch contents of the four arguments: the
    aggregation call's final array over the projected array the projection call left. -/
theorem kernel_result (m : (ℓ : Loc nD τ sig) → Buf (Elt Ideal) ℓ) (ρ : Dev nD → PrngReg) (c : Dev nD) :
    (dat1 (F := Ideal) (V1 m ρ) c).arrAt 2 cfg1.N
      = Cert.Gcn.aggArr (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Val1.final1]
  funext i
  show ∑ j : Fin 16384, Cert.KernelIdeal.Val1.term (V1 m ρ c main_arg1) (V1 m ρ c main_v0) _ _ j = Cert.Gcn.agg _ _ _ _ _ _
  unfold Cert.Gcn.agg Cert.KernelIdeal.Val1.term
  rw [V1_main_arg1 m ρ c, V1_main_v0 m ρ c, Cert.KernelIdeal.Val.final0]
  rfl

end Value

/-- On the extended reals both programs end with the layer's output of their (agreeing) arguments. -/
theorem algebraic : Cert.algebraic_KernelIdeal_ReferenceIdeal := by
  intro m ρ m' ρ' _ hagree
  refine ⟨fun c => Cert.Gcn.aggArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (kernel_result m ρ c), (h c).2⟩)
      (Cert.KernelIdeal.Fr.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.RefValue.ref_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
